-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128 .f32) (main_arg6 : FVec F S128x32 .f32) (main_arg7 : FVec F S32 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) (main_arg6 : FVec F S128x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1600000x128 : Shape := ⟨2, ![1600000, 128]⟩
abbrev S1x128 : Shape := ⟨2, ![1, 128]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩

abbrev nBuf : Space → Nat
  | .hbm => 98
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x128, .f32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x32, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x32, .f32⟩
  | .hbm, ⟨90, _⟩ => ⟨S1600000x32, .f32⟩
  | .hbm, ⟨91, _⟩ => ⟨S1600000x32, .f32⟩
  | .hbm, ⟨92, _⟩ => ⟨S_, .f32⟩
  | .hbm, ⟨93, _⟩ => ⟨S100000x32, .f32⟩
  | .hbm, ⟨94, _⟩ => ⟨S1600000x1, .i32⟩
  | .hbm, ⟨95, _⟩ => ⟨S100000x32, .f32⟩
  | .hbm, ⟨96, _⟩ => ⟨S1x32, .f32⟩
  | .hbm, ⟨97, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1600000x128 : Shape := ⟨2, ![1600000, 128]⟩
abbrev S1x128 : Shape := ⟨2, ![1, 128]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x128, .f32⟩
  | 5 => ⟨S128, .f32⟩
  | 6 => ⟨S128x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x32, .f32⟩
  | 127 => ⟨S_, .f32⟩
  | _ => ⟨S100000x128, .f32⟩

abbrev hbmTy0_1 (i : Nat) : BufTy := match i % 128 with
  | 0 => ⟨S1600000, .f32⟩
  | 1 => ⟨S_, .f32⟩
  | 2 => ⟨S100000, .f32⟩
  | 3 => ⟨S1600000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x32, .f32⟩
  | 37 => ⟨S1600000x1, .f32⟩
  | 38 => ⟨S1600000x32, .f32⟩
  | 39 => ⟨S1600000x32, .f32⟩
  | 40 => ⟨S_, .f32⟩
  | 41 => ⟨S100000x32, .f32⟩
  | 42 => ⟨S1600000x1, .i32⟩
  | 43 => ⟨S100000x32, .f32⟩
  | 44 => ⟨S100000, .f32⟩
  | 45 => ⟨S100000x1, .f32⟩
  | 46 => ⟨S100000x32, .f32⟩
  | 47 => ⟨S100000x32, .f32⟩
  | 48 => ⟨S100000x32, .f32⟩
  | 49 => ⟨S1x32, .f32⟩
  | 50 => ⟨S100000x32, .f32⟩
  | 51 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run, with its result named.

  The program is six pipelined regions among four stretches of host operations. Its generated frame proof follows the
  buffers' contents from the launch to the return, one boundary after another: after a stretch of host operations
  every buffer holds what the operations compute from the previous boundary's contents, and after a region each array
  the region stages holds what the region's write-backs leave while every other buffer is kept. At the return every
  unscoped buffer holds the last boundary's contents. The frame claim reads only the argument arrays off that last
  boundary; here the result array is read off it as well, so that every weakly fair execution ends with the result
  array at the last boundary's contents and the arguments as launched.
-/
import proofs.«110792_j75728863363600_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the eight argument arrays as launched. -/
theorem run : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Result

end
-- ==== Proof.Kept.lean ====
/-
  Buffers that a stretch of host operations or a region leaves alone.

  Between two consecutive boundaries of the program a buffer keeps its contents when the stretch of host operations
  between them does not write it, when the region between them does not stage it, or when the region only reads it
  through an input window. Each statement below is one such step for one buffer: the contents at a boundary are the
  contents at the boundary before. They are what lets a value computed early (the edge lists, the degree
  normalisation, the weights and biases, a layer's projected rows) be read where a later stretch or region uses it.
-/
import proofs.«110792_j75728863363600_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- No operation of the named stretch writes the buffer the goal reads: each operation's result buffer is another. -/
local macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem v1_at2 (c : Dev nD) : W2 m ρ c (Proc.devRef .tc main_v1) = W1 m ρ c (Proc.devRef .tc main_v1) :=
  W2_of_ne m ρ c main_v1 (by decide)
theorem v1_at3 (c : Dev nD) : W3 m ρ c (Proc.devRef .tc main_v1) = W2 m ρ c (Proc.devRef .tc main_v1) := by
  stretch_keeps hostOps1
theorem v1_at4 (c : Dev nD) : W4 m ρ c (Proc.devRef .tc main_v1) = W3 m ρ c (Proc.devRef .tc main_v1) :=
  W4_of_ne m ρ c main_v1 (by decide)
theorem v1_at5 (c : Dev nD) : W5 m ρ c (Proc.devRef .tc main_v1) = W4 m ρ c (Proc.devRef .tc main_v1) :=
  W5_of_ne m ρ c main_v1 (by decide)
theorem v1_at6 (c : Dev nD) : W6 m ρ c (Proc.devRef .tc main_v1) = W5 m ρ c (Proc.devRef .tc main_v1) := by
  stretch_keeps hostOps3
theorem v1_at7 (c : Dev nD) : W7 m ρ c (Proc.devRef .tc main_v1) = W6 m ρ c (Proc.devRef .tc main_v1) :=
  W7_of_ne m ρ c main_v1 (by decide)
theorem v1_at8 (c : Dev nD) : W8 m ρ c (Proc.devRef .tc main_v1) = W7 m ρ c (Proc.devRef .tc main_v1) :=
  W8_of_ne m ρ c main_v1 (by decide)

theorem v3_at2 (c : Dev nD) : W2 m ρ c (Proc.devRef .tc main_v3) = W1 m ρ c (Proc.devRef .tc main_v3) :=
  W2_of_ne m ρ c main_v3 (by decide)
theorem v3_at3 (c : Dev nD) : W3 m ρ c (Proc.devRef .tc main_v3) = W2 m ρ c (Proc.devRef .tc main_v3) := by
  stretch_keeps hostOps1
theorem v3_at4 (c : Dev nD) : W4 m ρ c (Proc.devRef .tc main_v3) = W3 m ρ c (Proc.devRef .tc main_v3) :=
  W4_of_ne m ρ c main_v3 (by decide)
theorem v3_at5 (c : Dev nD) : W5 m ρ c (Proc.devRef .tc main_v3) = W4 m ρ c (Proc.devRef .tc main_v3) :=
  W5_of_ne m ρ c main_v3 (by decide)
theorem v3_at6 (c : Dev nD) : W6 m ρ c (Proc.devRef .tc main_v3) = W5 m ρ c (Proc.devRef .tc main_v3) := by
  stretch_keeps hostOps3
theorem v3_at7 (c : Dev nD) : W7 m ρ c (Proc.devRef .tc main_v3) = W6 m ρ c (Proc.devRef .tc main_v3) :=
  W7_of_ne m ρ c main_v3 (by decide)
theorem v3_at8 (c : Dev nD) : W8 m ρ c (Proc.devRef .tc main_v3) = W7 m ρ c (Proc.devRef .tc main_v3) :=
  W8_of_ne m ρ c main_v3 (by decide)

theorem v28_at2 (c : Dev nD) : W2 m ρ c (Proc.devRef .tc main_v28) = W1 m ρ c (Proc.devRef .tc main_v28) :=
  W2_of_ne m ρ c main_v28 (by decide)
theorem v28_at3 (c : Dev nD) : W3 m ρ c (Proc.devRef .tc main_v28) = W2 m ρ c (Proc.devRef .tc main_v28) := by
  stretch_keeps hostOps1
theorem v28_at4 (c : Dev nD) : W4 m ρ c (Proc.devRef .tc main_v28) = W3 m ρ c (Proc.devRef .tc main_v28) :=
  W4_of_ne m ρ c main_v28 (by decide)
theorem v28_at5 (c : Dev nD) : W5 m ρ c (Proc.devRef .tc main_v28) = W4 m ρ c (Proc.devRef .tc main_v28) :=
  W5_of_ne m ρ c main_v28 (by decide)
theorem v28_at6 (c : Dev nD) : W6 m ρ c (Proc.devRef .tc main_v28) = W5 m ρ c (Proc.devRef .tc main_v28) := by
  stretch_keeps hostOps3
theorem v28_at7 (c : Dev nD) : W7 m ρ c (Proc.devRef .tc main_v28) = W6 m ρ c (Proc.devRef .tc main_v28) :=
  W7_of_ne m ρ c main_v28 (by decide)
theorem v28_at8 (c : Dev nD) : W8 m ρ c (Proc.devRef .tc main_v28) = W7 m ρ c (Proc.devRef .tc main_v28) :=
  W8_of_ne m ρ c main_v28 (by decide)

theorem v12_at2 (c : Dev nD) : W2 m ρ c (Proc.devRef .tc main_v12) = W1 m ρ c (Proc.devRef .tc main_v12) :=
  W2_of_ne m ρ c main_v12 (by decide)
theorem v12_at3 (c : Dev nD) : W3 m ρ c (Proc.devRef .tc main_v12) = W2 m ρ c (Proc.devRef .tc main_v12) := by
  stretch_keeps hostOps1
theorem v12_at4 (c : Dev nD) : W4 m ρ c (Proc.devRef .tc main_v12) = W3 m ρ c (Proc.devRef .tc main_v12) :=
  (W4_arr m ρ c 2).trans (((dat1 (V3 m ρ) c).arrAt_in 2 rfl _).trans (A_eq1 (V3 m ρ) c 2))
theorem v12_at5 (c : Dev nD) : W5 m ρ c (Proc.devRef .tc main_v12) = W4 m ρ c (Proc.devRef .tc main_v12) :=
  W5_of_ne m ρ c main_v12 (by decide)
theorem v12_at6 (c : Dev nD) : W6 m ρ c (Proc.devRef .tc main_v12) = W5 m ρ c (Proc.devRef .tc main_v12) := by
  stretch_keeps hostOps3
theorem v12_at7 (c : Dev nD) : W7 m ρ c (Proc.devRef .tc main_v12) = W6 m ρ c (Proc.devRef .tc main_v12) :=
  (W7_arr m ρ c 2).trans (((dat3 (V6 m ρ) c).arrAt_in 2 rfl _).trans (A_eq3 (V6 m ρ) c 2))
theorem v12_at8 (c : Dev nD) : W8 m ρ c (Proc.devRef .tc main_v12) = W7 m ρ c (Proc.devRef .tc main_v12) :=
  W8_of_ne m ρ c main_v12 (by decide)
theorem v12_at9 (c : Dev nD) : W9 m ρ c (Proc.devRef .tc main_v12) = W8 m ρ c (Proc.devRef .tc main_v12) := by
  stretch_keeps hostOps5

theorem arg0_at1 (c : Dev nD) : W1 m ρ c (Proc.devRef .tc main_arg0) = W0 m ρ c (Proc.devRef .tc main_arg0) := by
  stretch_keeps hostOps0

theorem arg2_at1 (c : Dev nD) : W1 m ρ c (Proc.devRef .tc main_arg2) = W0 m ρ c (Proc.devRef .tc main_arg2) := by
  stretch_keeps hostOps0

theorem arg3_at1 (c : Dev nD) : W1 m ρ c (Proc.devRef .tc main_arg3) = W0 m ρ c (Proc.devRef .tc main_arg3) := by
  stretch_keeps hostOps0
theorem arg3_at2 (c : Dev nD) : W2 m ρ c (Proc.devRef .tc main_arg3) = W1 m ρ c (Proc.devRef .tc main_arg3) :=
  W2_of_ne m ρ c main_arg3 (by decide)

theorem arg4_at1 (c : Dev nD) : W1 m ρ c (Proc.devRef .tc main_arg4) = W0 m ρ c (Proc.devRef .tc main_arg4) := by
  stretch_keeps hostOps0
theorem arg4_at2 (c : Dev nD) : W2 m ρ c (Proc.devRef .tc main_arg4) = W1 m ρ c (Proc.devRef .tc main_arg4) :=
  W2_of_ne m ρ c main_arg4 (by decide)
theorem arg4_at3 (c : Dev nD) : W3 m ρ c (Proc.devRef .tc main_arg4) = W2 m ρ c (Proc.devRef .tc main_arg4) := by
  stretch_keeps hostOps1
theorem arg4_at4 (c : Dev nD) : W4 m ρ c (Proc.devRef .tc main_arg4) = W3 m ρ c (Proc.devRef .tc main_arg4) :=
  W4_of_ne m ρ c main_arg4 (by decide)

theorem arg5_at1 (c : Dev nD) : W1 m ρ c (Proc.devRef .tc main_arg5) = W0 m ρ c (Proc.devRef .tc main_arg5) := by
  stretch_keeps hostOps0
theorem arg5_at2 (c : Dev nD) : W2 m ρ c (Proc.devRef .tc main_arg5) = W1 m ρ c (Proc.devRef .tc main_arg5) :=
  W2_of_ne m ρ c main_arg5 (by decide)
theorem arg5_at3 (c : Dev nD) : W3 m ρ c (Proc.devRef .tc main_arg5) = W2 m ρ c (Proc.devRef .tc main_arg5) := by
  stretch_keeps hostOps1
theorem arg5_at4 (c : Dev nD) : W4 m ρ c (Proc.devRef .tc main_arg5) = W3 m ρ c (Proc.devRef .tc main_arg5) :=
  W4_of_ne m ρ c main_arg5 (by decide)
theorem arg5_at5 (c : Dev nD) : W5 m ρ c (Proc.devRef .tc main_arg5) = W4 m ρ c (Proc.devRef .tc main_arg5) :=
  W5_of_ne m ρ c main_arg5 (by decide)

theorem arg6_at1 (c : Dev nD) : W1 m ρ c (Proc.devRef .tc main_arg6) = W0 m ρ c (Proc.devRef .tc main_arg6) := by
  stretch_keeps hostOps0
theorem arg6_at2 (c : Dev nD) : W2 m ρ c (Proc.devRef .tc main_arg6) = W1 m ρ c (Proc.devRef .tc main_arg6) :=
  W2_of_ne m ρ c main_arg6 (by decide)
theorem arg6_at3 (c : Dev nD) : W3 m ρ c (Proc.devRef .tc main_arg6) = W2 m ρ c (Proc.devRef .tc main_arg6) := by
  stretch_keeps hostOps1
theorem arg6_at4 (c : Dev nD) : W4 m ρ c (Proc.devRef .tc main_arg6) = W3 m ρ c (Proc.devRef .tc main_arg6) :=
  W4_of_ne m ρ c main_arg6 (by decide)
theorem arg6_at5 (c : Dev nD) : W5 m ρ c (Proc.devRef .tc main_arg6) = W4 m ρ c (Proc.devRef .tc main_arg6) :=
  W5_of_ne m ρ c main_arg6 (by decide)
theorem arg6_at6 (c : Dev nD) : W6 m ρ c (Proc.devRef .tc main_arg6) = W5 m ρ c (Proc.devRef .tc main_arg6) := by
  stretch_keeps hostOps3
theorem arg6_at7 (c : Dev nD) : W7 m ρ c (Proc.devRef .tc main_arg6) = W6 m ρ c (Proc.devRef .tc main_arg6) :=
  W7_of_ne m ρ c main_arg6 (by decide)

theorem arg7_at1 (c : Dev nD) : W1 m ρ c (Proc.devRef .tc main_arg7) = W0 m ρ c (Proc.devRef .tc main_arg7) := by
  stretch_keeps hostOps0
theorem arg7_at2 (c : Dev nD) : W2 m ρ c (Proc.devRef .tc main_arg7) = W1 m ρ c (Proc.devRef .tc main_arg7) :=
  W2_of_ne m ρ c main_arg7 (by decide)
theorem arg7_at3 (c : Dev nD) : W3 m ρ c (Proc.devRef .tc main_arg7) = W2 m ρ c (Proc.devRef .tc main_arg7) := by
  stretch_keeps hostOps1
theorem arg7_at4 (c : Dev nD) : W4 m ρ c (Proc.devRef .tc main_arg7) = W3 m ρ c (Proc.devRef .tc main_arg7) :=
  W4_of_ne m ρ c main_arg7 (by decide)
theorem arg7_at5 (c : Dev nD) : W5 m ρ c (Proc.devRef .tc main_arg7) = W4 m ρ c (Proc.devRef .tc main_arg7) :=
  W5_of_ne m ρ c main_arg7 (by decide)
theorem arg7_at6 (c : Dev nD) : W6 m ρ c (Proc.devRef .tc main_arg7) = W5 m ρ c (Proc.devRef .tc main_arg7) := by
  stretch_keeps hostOps3
theorem arg7_at7 (c : Dev nD) : W7 m ρ c (Proc.devRef .tc main_arg7) = W6 m ρ c (Proc.devRef .tc main_arg7) :=
  W7_of_ne m ρ c main_arg7 (by decide)
theorem arg7_at8 (c : Dev nD) : W8 m ρ c (Proc.devRef .tc main_arg7) = W7 m ρ c (Proc.devRef .tc main_arg7) :=
  W8_of_ne m ρ c main_arg7 (by decide)

theorem v29_at3 (c : Dev nD) : W3 m ρ c (Proc.devRef .tc main_v29) = W2 m ρ c (Proc.devRef .tc main_v29) := by
  stretch_keeps hostOps1

theorem v44_at6 (c : Dev nD) : W6 m ρ c (Proc.devRef .tc main_v44) = W5 m ρ c (Proc.devRef .tc main_v44) := by
  stretch_keeps hostOps3

theorem v59_at9 (c : Dev nD) : W9 m ρ c (Proc.devRef .tc main_v59) = W8 m ρ c (Proc.devRef .tc main_v59) := by
  stretch_keeps hostOps5

end Cert.KernelIdeal.Kept

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«110792_j75728863363600_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«110792_j75728863363600_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«110792_j75728863363600_1_alg».proof.Proof.LibPlainRecord
import proofs.«110792_j75728863363600_1_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.Stage0.lean ====
/-
  What the first stretch of host operations leaves, against the reference's own stages.

  Before the first region the program splits the edge list into its source and destination rows, counts each node's
  incoming edges and adds one, takes the inverse square root d of that degree, and prepares two things every layer
  reuses: the column of d(r)² (one number per node, for the node's own row) and the column of d(src(e)) · d(dst(e))
  (one number per edge). The reference computes the same quantities with the same host operations, layer by layer.
  Each buffer below therefore holds, at the first boundary, exactly a stage of the reference applied to the launch
  contents of the edge list; a column made by a reshape on one side and by a broadcast along a new unit axis on the
  other is the same column.
-/
import proofs.«110792_j75728863363600_1_alg».proof.Proof.Kept
import proofs.«110792_j75728863363600_1_alg».proof.Proof.Gen.ReferenceIdeal.Read
import proofs.«110792_j75728863363600_1_alg».proof.Proof.LibOuterBlock

set_option maxRecDepth 16384

noncomputable section

namespace Cert.KernelIdeal.Stages

open Cert.KernelIdeal Cert.KernelIdeal.Gen Cert.Lib.DenseLayer
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The source row of the edge list. -/
theorem src_at1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

/-- The destination row of the edge list. -/
theorem dst_at1 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

/-- The column of squared inverse root degrees: reshaped here, broadcast along a new unit axis in the reference. -/
theorem selfWeight_at1 (c : Dev nD) : W1 m ρ c (Proc.devRef .tc main_v12) = Cert.ReferenceIdeal.Read.val_main_v41 (F := Ideal) (m ((c : Thread nD τ).loc main_arg1)) := by
  show StableHlo.after hostOps0 (W0 m ρ c) (Proc.devRef .tc main_v12) = _
  after_results_simp
  refine (trailUnit_eq_bcast (n := 100000) (by decide) _ _ Cert.ReferenceIdeal.Gen.bcast_S100000_S100000x1_0).trans ?_
  rfl

/-- The column of edge weights d(src) · d(dst): reshaped here, broadcast along a new unit axis in the reference. -/
theorem edgeWeight_at1 (c : Dev nD) : W1 m ρ c (Proc.devRef .tc main_v28) = Cert.ReferenceIdeal.Read.val_main_v34 (F := Ideal) (m ((c : Thread nD τ).loc main_arg1)) := by
  show StableHlo.after hostOps0 (W0 m ρ c) (Proc.devRef .tc main_v28) = _
  after_results_simp
  refine (trailUnit_eq_bcast (n := 1600000) (by decide) _ _ Cert.ReferenceIdeal.Gen.bcast_S1600000_S1600000x1_0).trans ?_
  rfl

/-- The arguments are still as launched at the first boundary. -/
theorem arg0_at1 (c : Dev nD) : W1 m ρ c (Proc.devRef .tc main_arg0) = (m ((c : Thread nD τ).loc main_arg0)) := Kept.arg0_at1 m ρ c
theorem arg2_at1 (c : Dev nD) : W1 m ρ c (Proc.devRef .tc main_arg2) = (m ((c : Thread nD τ).loc main_arg2)) := Kept.arg2_at1 m ρ c

end Cert.KernelIdeal.Stages

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«110792_j75728863363600_1_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibTileEntry.lean ====
/-
  A block of rows of a dense product, entry by entry, at the extended reals.

  A matrix X of M rows is multiplied by a matrix W. A tile of the product is computed from a tile of rows of X and
  from all of W, both first narrowed to a shorter float format (the identity at the extended reals), accumulated
  into the zero matrix. Entry (r, c) of the tile is the sum over k of X(off + r, k) · W(k, c), which is entry
  (off + r, c) of the host's product X · W. The host's product does not depend on the float format its operands
  are held in. No finiteness is asked of any entry.
-/
import proofs.«110792_j75728863363600_1_alg».proof.Proof.LibBlockFormats

noncomputable section

open scoped BigOperators

namespace Cert.Lib.TileEntry

open Idealize.ShloMosaic Idealize.ShloMosaic.ValueIdx Cert.Lib.DenseLayer

/-- The host's product of two operands reads its right operand as a function of the index only: two right operands
    with the same entries, held in whatever formats, give the same product. -/
theorem dotGeneral_right_congr {sl sr so : Shape} {φ₁ φ₂ φ₂' : FTy} (d : DotDims sl sr so) (l : FVec Ideal sl φ₁)
    (r : FVec Ideal sr φ₂) (r' : FVec Ideal sr φ₂') (h : ∀ i, r i = r' i) :
    Host.dotGeneral d none l r = Host.dotGeneral d none l r' := funext fun j =>
  (Ideal.dotGeneral_apply d none .single l r j).trans
    ((Finset.sum_congr rfl fun q _ => by rw [h]).trans (Ideal.dotGeneral_apply d none .single l r' j).symm)

/-- One entry of a tile of the product: the tile's rows are rows off, off + 1, … of X, its right factor is W. -/
theorem tile_entry {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    (xb : FVec Ideal ⟨2, ![Mb, K]⟩ .f32) (X : FVec Ideal ⟨2, ![M, K]⟩ .f32) (wb W : FVec Ideal ⟨2, ![K, N]⟩ .f32)
    (hx : RowBlk off xb X) (hw : ∀ i, wb i = W i) (h₁ : FTy.bf16.bits < FTy.f32.bits) (h₂ : FTy.bf16.bits < FTy.f32.bits)
    (j : (⟨2, ![Mb, N]⟩ : Shape).Idx) (i : (⟨2, ![M, N]⟩ : Shape).Idx)
    (hi0 : (i 0).val = off + (j 0).val) (hi1 : (i 1).val = (j 1).val) :
    Idealize.ShloMosaic.matmul db none (truncf .bf16 xb h₁) (truncf .bf16 wb h₂) (constant ⟨2, ![Mb, N]⟩ .f32 0x00000000#32) j
      = Host.dotGeneral dh none X W i :=
  ((RowBlk.matmulZero hb hh (RowBlk.narrow hx h₁) (truncf .bf16 wb h₂)).at j i hi0 hi1).trans
    (congrFun (dotGeneral_right_congr dh X (truncf .bf16 wb h₂) W hw) i)

end Cert.Lib.TileEntry

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«110792_j75728863363600_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.Project0.lean ====
/-
  The first layer's projection as one matrix product.

  The region cuts the 100000 rows of its left operand X into 20 blocks of 5000 consecutive rows; at grid point t it
  loads block t of X and the whole weight matrix W, narrows both to a shorter float format (the identity at the extended
  reals), multiplies them into a zero accumulator and writes the 5000 × 64 product back as block t of the output. Entry
  (r, c) of that block is the sum over k of X(5000·t + r, k) · W(k, c), which is entry (5000·t + r, c) of the product
  X · W of the whole matrices; the 20 blocks tile the output, so after the region the output array is X · W.
-/
import proofs.«110792_j75728863363600_1_alg».proof.Proof.Gen.KernelIdeal.Frame
import proofs.«110792_j75728863363600_1_alg».proof.Proof.Gen.ReferenceIdeal
import proofs.«110792_j75728863363600_1_alg».proof.Proof.LibTileEntry
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The block's product record and the whole matrices' read as the textbook product. -/
theorem plainBlock0 : Plain dot_S5000x128_S128x64_S5000x64_1_0_0_1_n_n := Plain.of_fields _ rfl rfl rfl rfl rfl rfl
theorem plainWhole0 : Plain Cert.ReferenceIdeal.dot_S100000x128_S128x64_S100000x64_1_0_0_1_n_n := Plain.of_fields _ rfl rfl rfl rfl rfl rfl

/-- The product of the whole matrices, in the host's spelling. -/
def projection0 (X : FVec Ideal S100000x128 .f32) (W : FVec Ideal S128x64 .f32) : FVec Ideal S100000x64 .f32 :=
  Host.dotGeneral Cert.ReferenceIdeal.dot_S100000x128_S128x64_S100000x64_1_0_0_1_n_n none X W

/-- The region's index maps over its 20 points: the left operand and the output move one block of rows per point, the
    weight matrix stays. -/
theorem indexMaps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of what the body computes from a block of rows of X and a copy of W: the whole product's entry `off`
    rows further down. -/
theorem product0_entry (x0 : Vec Ideal S5000x128 .f32) (x1 : Vec Ideal S128x64 .f32) (X : FVec Ideal S100000x128 .f32) (W : FVec Ideal S128x64 .f32)
    (off : Nat) (hx : RowBlk off x0 X) (hw : ∀ y, x1 y = W y) (j : S5000x64.Idx) (i : S100000x64.Idx)
    (hi0 : (i 0).val = off + (j 0).val) (hi1 : (i 1).val = (j 1).val) :
    k0_pay1 x0 x1 j = projection0 X W i :=
  Cert.Lib.TileEntry.tile_entry plainBlock0 plainWhole0 x0 X x1 W hx hw bitsLt_bf16_f32 bitsLt_bf16_f32 j i hi0 hi1

/-- What point t writes back is block t of the product of the whole matrices as the region finds them. -/
theorem written0 (c : Dev nD) (t : Fin cfg0.N) :
    (dat0 V c).flushed 2 t = ((cfg0.win 2).blk t).view.read (Elt Ideal)
      (projection0 (V c (Pipeline.arrRef spec0 0)) (V c (Pipeline.arrRef spec0 1))) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x64) origin0]
  obtain ⟨e00, e01, e10, e11, e20, e21⟩ := indexMaps0 t
  funext j
  refine product0_entry (iblk0 V c 0 t) (iblk0 V c 1 t) (V c (Pipeline.arrRef spec0 0)) (V c (Pipeline.arrRef spec0 1)) (t.val * 5000)
    (RowBlk.of_read (fun y => ((cfg0.win 0).blk t).view.emb y)
      (fun y => by show win0_0.index t (0 : Fin 2) * 5000 + 1 * (y 0).val = t.val * 5000 + (y 0).val; omega)
      (fun y => by show win0_0.index t (1 : Fin 2) * 128 + 1 * (y 1).val = (y 1).val; omega)
      (fun y => rfl))
    (fun y => ?_) j (((cfg0.win 2).blk t).view.emb j) ?_ ?_
  · show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · show win0_2.index t (0 : Fin 2) * 5000 + 1 * (j 0).val = t.val * 5000 + (j 0).val; omega
  · show win0_2.index t (1 : Fin 2) * 64 + 1 * (j 1).val = (j 1).val; omega

/-- An index of the output array lies in point t's block iff each coordinate lies in the block's range on its axis. -/
theorem inBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Row r of the output lies in the block of point r / 5000: the 20 blocks cover the array. -/
theorem covered0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := by show (i 0).val / 5000 < grid0.N; rw [N_0]; omega
  obtain ⟨e00, e01, e10, e11, e20, e21⟩ := indexMaps0 ⟨(i 0).val / 5000, hN⟩
  refine ⟨⟨(i 0).val / 5000, hN⟩, flush0_2 _, ?_⟩
  rw [inBlock0]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 64 ≤ (i 1).val ∧ (i 1).val < win0_2.index ⟨(i 0).val / 5000, hN⟩ (1 : Fin 2) * 64 + 64
    rw [e21]; omega

/-- After the region the output array is the product of the two operand arrays as the region found them. -/
theorem product0 (c : Dev nD) :
    (dat0 V c).arrAt 2 cfg0.N
      = projection0 (V c (Pipeline.arrRef spec0 0)) (V c (Pipeline.arrRef spec0 1)) :=
  (dat0 V c).arrAt_eq_of_cover 2 _ (fun t _ => written0 V c t) (covered0)

end Cert.KernelIdeal.Layers

end
-- ==== Proof.LibNarrowRight.lean ====
/-
  Blocks of rows of a dense layer at the extended reals: four more ways a block is carried.

  At the extended reals a float of every format is an extended real and a change of format is the identity. So a
  block of rows (held in any format) times a weight matrix that is narrowed from f32 on the way into the matrix
  unit, accumulated into the zero matrix, is that block of rows of the host's product with the weight matrix
  itself; the entrywise product of two blocks held in any one format is the block of the entrywise product; and
  a matrix filled with one number inside a kernel body and a rank-0 constant broadcast on the host are two
  constant matrices of one value; and a block of rows of a block of rows of a matrix is a block of rows of it. No
  finiteness is asked of any entry.
-/
import proofs.«110792_j75728863363600_1_alg».proof.Proof.LibBlockFormats

noncomputable section

open scoped BigOperators

namespace Cert.Lib.DenseLayer

open Idealize.ShloMosaic Idealize.ShloMosaic.ValueIdx Cert.Lib.PlainDot

/-- A block of rows in any format times a weight matrix narrowed from f32, accumulated into the zero matrix,
    is the block of rows of the host's product with the weight matrix itself: the narrowing is the identity,
    and both sides are the sum over k of x(r, k) · w(k, c). -/
theorem RowBlk.matmulNarrowRight {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ ψ : FTy}
    {xb : FVec Ideal ⟨2, ![Mb, K]⟩ φ₁} {X : FVec Ideal ⟨2, ![M, K]⟩ .f32} (h : RowBlk off xb X)
    (w : FVec Ideal ⟨2, ![K, N]⟩ .f32) (hψ : ψ.bits < FTy.f32.bits) :
    RowBlk off (Idealize.ShloMosaic.matmul db none xb (truncf ψ w hψ) (constant ⟨2, ![Mb, N]⟩ .f32 0x00000000#32))
      (Host.dotGeneral dh none X w) := fun r hr c =>
  ((Ideal.matmul_constant_zero_apply db none xb (truncf ψ w hψ) (ix2 r c)).trans
    (contraction_sum db hb.rank hb.size hb.l0 hb.l1 hb.r0 hb.r1 xb (truncf ψ w hψ) r c)).trans
    ((Finset.sum_congr rfl fun k _ => congrArg (· * w (ix2 k c)) (h r hr k)).trans
      (hh.dot_apply X w ⟨off + r.val, hr⟩ c).symm)

/-- Entrywise products of blocks of rows held in any one float format. -/
theorem RowBlk.mulAny {Mb M K : Nat} {off : Nat} {φ : FTy} {a b : FVec Ideal ⟨2, ![Mb, K]⟩ φ}
    {A B : FVec Ideal ⟨2, ![M, K]⟩ .f32} (ha : RowBlk off a A) (hb : RowBlk off b B) :
    RowBlk off (mulf a b) (mulf A B) := fun r hr k => by
  rw [mulf_apply, mulf_apply]
  show a (ix2 r k) * b (ix2 r k) = A (ix2 ⟨off + r.val, hr⟩ k) * B (ix2 ⟨off + r.val, hr⟩ k)
  rw [ha r hr k, hb r hr k]

/-- A block filled with the float of one bit pattern inside a body, and the rank-0 constant of that pattern
    broadcast to a whole matrix on the host, are constant matrices of one value. -/
theorem RowBlk.fill {Mb M K : Nat} {off : Nat} (bits : BitVec FTy.f32.bits)
    (hB : (⟨0, ![]⟩ : Shape).BroadcastsInDim ⟨2, ![M, K]⟩ ![]) :
    RowBlk (Mb := Mb) off (broadcast ⟨2, ![Mb, K]⟩ (Scalar.ofBits (F := Ideal) .f32 bits))
      (broadcastInDim ⟨2, ![M, K]⟩ ![] hB (constant (F := Ideal) ⟨0, ![]⟩ .f32 bits)) := fun r hr k =>
  (broadcastInDim_apply _ hB (constant (F := Ideal) ⟨0, ![]⟩ .f32 bits) (ix2 ⟨off + r.val, hr⟩ k) (fun a => a.elim0)
    (fun a => a.elim0)).symm

/-- A block of rows of a block of rows is a block of rows: if xb is the rows of X from row off₂ + off₁ and Y is the rows
    of X from row off₂, then xb is the rows of Y from row off₁ (when it fits inside Y, and Y inside X). -/
theorem RowBlk.sub {Mb Mm M K : Nat} {off off₁ off₂ : Nat} {xb : (⟨2, ![Mb, K]⟩ : Shape).Idx → EReal}
    {X : (⟨2, ![M, K]⟩ : Shape).Idx → EReal} {Y : (⟨2, ![Mm, K]⟩ : Shape).Idx → EReal}
    (h : RowBlk off xb X) (hY : RowBlk off₂ Y X) (e : off = off₂ + off₁) (hM : off₂ + Mm ≤ M) :
    RowBlk off₁ xb Y := fun r hr k => by
  subst e
  have hr' : off₂ + off₁ + r.val < M := by omega
  rw [h r hr' k, hY ⟨off₁ + r.val, hr⟩ (by show off₂ + (off₁ + r.val) < M; omega) k]
  exact congrArg (fun q => X (ix2 q k)) (Fin.ext (by show off₂ + off₁ + r.val = off₂ + (off₁ + r.val); omega))

end Cert.Lib.DenseLayer

end
-- ==== Proof.LibSelfLoopBlock.lean ====
/-
  One graph-convolution combine step at the extended reals, read one block of rows at a time.

  For a matrix A of aggregated neighbour rows, a matrix H of the nodes' own rows, a column D holding one factor per
  node and one bias row b, the combine step makes the matrix whose row r is A(r, ·) + H(r, ·) · D(r) + b, optionally
  followed by the maximum with 0. Each row of the result is made from the same row of A, H and D alone, so what the step
  makes of a block of rows is the same block of rows of what it makes of the whole matrices: `RowBlk off xb X` (xb is
  the block of X that starts at row off) is carried from the three operands to the result. Inside a kernel body the
  operands first pass through reshapes to their own shapes, the column and the bias row are broadcast to the block,
  and the zero is a filled block; on the host the column and the row are broadcast to the whole matrix and the zero is
  a broadcast rank-0 constant. No finiteness is asked of any entry: only sums, products and maxima of the same entries
  are formed on both sides.
-/
import proofs.«110792_j75728863363600_1_alg».proof.Proof.LibOuterBlock
import proofs.«110792_j75728863363600_1_alg».proof.Proof.LibNarrowRight

noncomputable section

namespace Cert.Lib.DenseLayer

open Idealize.ShloMosaic Idealize.ShloMosaic.ValueIdx

/-- Row r of the result is A(r, ·) + H(r, ·) · D(r) + b: on a block of rows, with the body's reshapes and block
    broadcasts, against the host's broadcasts to the whole matrix. -/
theorem RowBlk.selfLoop {Mb M N : Nat} {off : Nat}
    {a h : FVec Ideal ⟨2, ![Mb, N]⟩ .f32} {A H : FVec Ideal ⟨2, ![M, N]⟩ .f32}
    {d : FVec Ideal ⟨2, ![Mb, 1]⟩ .f32} {D : FVec Ideal ⟨2, ![M, 1]⟩ .f32} (b : FVec Ideal ⟨2, ![1, N]⟩ .f32)
    (ha : RowBlk off a A) (hh : RowBlk off h H) (hd : RowBlk off d D)
    (ca : (⟨2, ![Mb, N]⟩ : Shape).ShapeCasts ⟨2, ![Mb, N]⟩) (cd : (⟨2, ![Mb, 1]⟩ : Shape).ShapeCasts ⟨2, ![Mb, 1]⟩)
    (cb : (⟨2, ![1, N]⟩ : Shape).ShapeCasts ⟨2, ![1, N]⟩)
    (bd : (⟨2, ![Mb, 1]⟩ : Shape).Broadcasts ⟨2, ![Mb, N]⟩) (bb : (⟨2, ![1, N]⟩ : Shape).Broadcasts ⟨2, ![Mb, N]⟩)
    (BD : (⟨2, ![M, 1]⟩ : Shape).BroadcastsInDim ⟨2, ![M, N]⟩ ![0, 1])
    (BB : (⟨2, ![1, N]⟩ : Shape).BroadcastsInDim ⟨2, ![M, N]⟩ ![0, 1]) :
    RowBlk off
      (addf (addf (shapeCast ⟨2, ![Mb, N]⟩ a ca)
          (mulf (shapeCast ⟨2, ![Mb, N]⟩ h ca) (broadcastTo ⟨2, ![Mb, N]⟩ (shapeCast ⟨2, ![Mb, 1]⟩ d cd) bd)))
        (broadcastTo ⟨2, ![Mb, N]⟩ (shapeCast ⟨2, ![1, N]⟩ b cb) bb))
      (addf (addf A (mulf H (broadcastInDim ⟨2, ![M, N]⟩ ![0, 1] BD D))) (broadcastInDim ⟨2, ![M, N]⟩ ![0, 1] BB b)) := by
  rw [shapeCast_self b cb]
  exact ((ha.castSelf ca).add ((hh.castSelf ca).mul ((hd.castSelf cd).col bd BD))).add (RowBlk.bias b bb BB)

/-- The maximum with 0, entry by entry: a block filled with the zero word inside a body, the rank-0 zero broadcast to
    the whole matrix on the host. -/
theorem RowBlk.rectify {Mb M N : Nat} {off : Nat} {x : FVec Ideal ⟨2, ![Mb, N]⟩ .f32} {X : FVec Ideal ⟨2, ![M, N]⟩ .f32}
    (hx : RowBlk off x X) (hB : (⟨0, ![]⟩ : Shape).BroadcastsInDim ⟨2, ![M, N]⟩ ![]) :
    RowBlk off (maximumf x (broadcast ⟨2, ![Mb, N]⟩ (Scalar.ofBits (F := Ideal) .f32 0x00000000#32)))
      (maximumf X (broadcastInDim ⟨2, ![M, N]⟩ ![] hB (constant (F := Ideal) ⟨0, ![]⟩ .f32 0x00000000#32))) :=
  hx.max (RowBlk.fill 0x00000000#32 hB)

end Cert.Lib.DenseLayer

end
-- ==== Proof.Combine1.lean ====
/-
  The first layer's combine step as one whole-array function.

  The region cuts the 100000 rows of the aggregated neighbour rows A, of the nodes' own projected rows H and of the
  per-node column D into 20 blocks of 5000 consecutive rows; at grid point t it loads block t of each and the one bias
  row b, and writes back, as block t of the output, the rows A(r, ·) + H(r, ·) · D(r) + b, each entry then replaced by its maximum with 0.
  Row r of a block is made from row 5000·t + r of the three operands alone, so the block is block t of the same
  function of the whole arrays; the 20 blocks tile the output, so after the region the output array is that function
  of the four operand arrays.
-/
import proofs.«110792_j75728863363600_1_alg».proof.Proof.Gen.KernelIdeal.Frame
import proofs.«110792_j75728863363600_1_alg».proof.Proof.Gen.ReferenceIdeal
import proofs.«110792_j75728863363600_1_alg».proof.Proof.LibSelfLoopBlock
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- The combine step of the whole arrays, in the host's spelling. -/
def combine1 (A H : FVec Ideal S100000x64 .f32) (D : FVec Ideal S100000x1 .f32) (b : FVec Ideal S1x64 .f32) : FVec Ideal S100000x64 .f32 :=
  maximumf (addf (addf A (mulf H (broadcastInDim S100000x64 ![0, 1] Cert.ReferenceIdeal.Gen.bcast_S100000x1_S100000x64_0_1 D))) (broadcastInDim S100000x64 ![0, 1] Cert.ReferenceIdeal.Gen.bcast_S1x64_S100000x64_0_1 b)) (broadcastInDim S100000x64 ![] Cert.ReferenceIdeal.Gen.bcast_S_S100000x64 (constant (F := Ideal) S_ .f32 0x00000000#32))

/-- The region's index maps over its 20 points: the three row-tiled operands and the output move one block of rows
    per point, the bias row stays. -/
theorem indexMaps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the body computes from blocks of rows of A, H and D and a copy of b is the same block of rows of the combine
    step of the whole arrays. -/
theorem combine1_block (x0 x1 : Vec Ideal S5000x64 .f32) (x2 : Vec Ideal S5000x1 .f32) (x3 : Vec Ideal S1x64 .f32)
    (A H : FVec Ideal S100000x64 .f32) (D : FVec Ideal S100000x1 .f32) (b : FVec Ideal S1x64 .f32) (off : Nat)
    (h0 : RowBlk off x0 A) (h1 : RowBlk off x1 H) (h2 : RowBlk off x2 D) (h3 : x3 = b) :
    RowBlk off (k1_pay1 x0 x1 x2 x3) (combine1 A H D b) := by
  subst h3
  exact (RowBlk.selfLoop x3 h0 h1 h2 _ _ _ _ _ _ _).rectify _

/-- What point t writes back is block t of the combine step of the whole arrays as the region finds them. -/
theorem written1 (c : Dev nD) (t : Fin cfg1.N) :
    (dat1 V c).flushed 4 t = ((cfg1.win 4).blk t).view.read (Elt Ideal)
      (combine1 (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero origin1]
  simp only [View.ld_unit_zero (S := S5000x64) origin1, View.ld_unit_zero (S := S5000x1) origin1, View.ld_unit_zero (S := S1x64) origin1]
  obtain ⟨e00, e01, e10, e11, e20, e21, e30, e31, e40, e41⟩ := indexMaps1 t
  funext j
  refine (combine1_block (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3)) (t.val * 5000)
    (RowBlk.of_read (fun y => ((cfg1.win 0).blk t).view.emb y)
      (fun y => by show win1_0.index t (0 : Fin 2) * 5000 + 1 * (y 0).val = t.val * 5000 + (y 0).val; omega)
      (fun y => by show win1_0.index t (1 : Fin 2) * 64 + 1 * (y 1).val = (y 1).val; omega)
      (fun y => rfl))
    (RowBlk.of_read (fun y => ((cfg1.win 1).blk t).view.emb y)
      (fun y => by show win1_1.index t (0 : Fin 2) * 5000 + 1 * (y 0).val = t.val * 5000 + (y 0).val; omega)
      (fun y => by show win1_1.index t (1 : Fin 2) * 64 + 1 * (y 1).val = (y 1).val; omega)
      (fun y => rfl))
    (RowBlk.of_read (fun y => ((cfg1.win 2).blk t).view.emb y)
      (fun y => by show win1_2.index t (0 : Fin 2) * 5000 + 1 * (y 0).val = t.val * 5000 + (y 0).val; omega)
      (fun y => by show win1_2.index t (1 : Fin 2) * 1 + 1 * (y 1).val = (y 1).val; omega)
      (fun y => rfl))
    (funext fun y => ?_)).read j (((cfg1.win 4).blk t).view.emb j) ?_ ?_
  · show V c (Pipeline.arrRef spec1 3) (((cfg1.win 3).blk t).view.emb y) = V c (Pipeline.arrRef spec1 3) y
    refine congrArg (V c (Pipeline.arrRef spec1 3)) (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · show win1_4.index t (0 : Fin 2) * 5000 + 1 * (j 0).val = t.val * 5000 + (j 0).val; omega
  · show win1_4.index t (1 : Fin 2) * 64 + 1 * (j 1).val = (j 1).val; omega

/-- An index of the output array lies in point t's block iff each coordinate lies in the block's range on its axis. -/
theorem inBlock1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Row r of the output lies in the block of point r / 5000: the 20 blocks cover the array. -/
theorem covered1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := by show (i 0).val / 5000 < grid1.N; rw [N_1]; omega
  obtain ⟨e00, e01, e10, e11, e20, e21, e30, e31, e40, e41⟩ := indexMaps1 ⟨(i 0).val / 5000, hN⟩
  refine ⟨⟨(i 0).val / 5000, hN⟩, flush1_4 _, ?_⟩
  rw [inBlock1]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 64 ≤ (i 1).val ∧ (i 1).val < win1_4.index ⟨(i 0).val / 5000, hN⟩ (1 : Fin 2) * 64 + 64
    rw [e41]; omega

/-- After the region the output array is the combine step of the four operand arrays as the region found them. -/
theorem combined1 (c : Dev nD) :
    (dat1 V c).arrAt 4 cfg1.N
      = combine1 (V c (Pipeline.arrRef spec1 0)) (V c (Pipeline.arrRef spec1 1)) (V c (Pipeline.arrRef spec1 2)) (V c (Pipeline.arrRef spec1 3)) :=
  (dat1 V c).arrAt_eq_of_cover 4 _ (fun t _ => written1 V c t) (covered1)

end Cert.KernelIdeal.Layers

end
-- ==== Proof.Stage1.lean ====
/-
  The first layer, boundary by boundary, against the reference's own stages.

  The layer's projection region leaves the product of the layer's input rows and its weight matrix; the stretch of
  host operations after it gathers each edge's source row of that product, scales it by the edge's weight and adds it
  into the edge's destination row, and makes the bias a one-row matrix; the combine region then adds, to every node's
  aggregated row, the node's own projected row scaled by its squared inverse root degree, and the bias, and takes the maximum with 0.
  The reference spells the same layer with host operations only, recomputing the degree normalisation from the edge
  list. Each buffer below holds, at the named boundary, the corresponding stage of the reference applied to the
  launch contents of the arguments: the regions by their whole-array forms, the host operations because they are the
  same operations on equal operands, a reshaped row or column because it is the broadcast one.
-/
import proofs.«110792_j75728863363600_1_alg».proof.Proof.Stage0
import proofs.«110792_j75728863363600_1_alg».proof.Proof.Project0
import proofs.«110792_j75728863363600_1_alg».proof.Proof.Combine1

set_option maxRecDepth 16384

noncomputable section

namespace Cert.KernelIdeal.Stages

open Cert.KernelIdeal Cert.KernelIdeal.Gen Cert.Lib.DenseLayer
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The reference recomputes the two weight columns in every layer from the edge list alone: the same columns. -/
theorem edgeWeight_same1 (x1 : (⟨Cert.ReferenceIdeal.S2x1600000, .i32⟩ : BufTy).Contents (Elt Ideal)) :
    Cert.ReferenceIdeal.Read.val_main_v34 (F := Ideal) x1 = Cert.ReferenceIdeal.Read.val_main_v34 (F := Ideal) x1 := rfl
theorem selfWeight_same1 (x1 : (⟨Cert.ReferenceIdeal.S2x1600000, .i32⟩ : BufTy).Contents (Elt Ideal)) :
    Cert.ReferenceIdeal.Read.val_main_v41 (F := Ideal) x1 = Cert.ReferenceIdeal.Read.val_main_v41 (F := Ideal) x1 := rfl

/-- The edge lists and the edge weights where the layer's host operations read them. -/
theorem src_at2 (c : Dev nD) : W2 m ρ c (Proc.devRef .tc main_v1) = Cert.ReferenceIdeal.Read.val_main_v1 (F := Ideal) (m ((c : Thread nD τ).loc main_arg1)) :=
  (Kept.v1_at2 m ρ c).trans (src_at1 m ρ c)
theorem dst_at2 (c : Dev nD) : W2 m ρ c (Proc.devRef .tc main_v3) = Cert.ReferenceIdeal.Read.val_main_v3 (F := Ideal) (m ((c : Thread nD τ).loc main_arg1)) :=
  (Kept.v3_at2 m ρ c).trans (dst_at1 m ρ c)
theorem edgeWeight_at2 (c : Dev nD) : W2 m ρ c (Proc.devRef .tc main_v28) = Cert.ReferenceIdeal.Read.val_main_v34 (F := Ideal) (m ((c : Thread nD τ).loc main_arg1)) :=
  ((Kept.v28_at2 m ρ c).trans (edgeWeight_at1 m ρ c)).trans (edgeWeight_same1 _).symm
theorem selfWeight_at3 (c : Dev nD) : W3 m ρ c (Proc.devRef .tc main_v12) = Cert.ReferenceIdeal.Read.val_main_v41 (F := Ideal) (m ((c : Thread nD τ).loc main_arg1)) :=
  ((Kept.v12_at3 m ρ c).trans ((Kept.v12_at2 m ρ c).trans (selfWeight_at1 m ρ c))).trans (selfWeight_same1 _).symm

/-- After the projection region: the layer's input rows times its weight matrix. -/
theorem projected_at2 (c : Dev nD) :
    W2 m ρ c (Proc.devRef .tc main_v29) = Cert.ReferenceIdeal.Read.val_main_v4 (F := Ideal) (m ((c : Thread nD τ).loc main_arg0)) (m ((c : Thread nD τ).loc main_arg2)) := by
  refine ((W2_arr m ρ c 2).trans (Layers.product0 (V1 m ρ) c)).trans ?_
  show Layers.projection0 (W1 m ρ c (Proc.devRef .tc main_arg0)) (W1 m ρ c (Proc.devRef .tc main_arg2)) = _
  rw [arg0_at1 m ρ c, (Kept.arg2_at1 m ρ c)]
  rfl

/-- After the host operations: every node's aggregated neighbour rows, and the bias as a one-row matrix. -/
theorem aggregated_at3 (c : Dev nD) :
    W3 m ρ c (Proc.devRef .tc main_v41) = Cert.ReferenceIdeal.Read.val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [src_at2 m ρ c, dst_at2 m ρ c, edgeWeight_at2 m ρ c, projected_at2 m ρ c]
  rfl
theorem bias_at3 (c : Dev nD) :
    W3 m ρ c (Proc.devRef .tc main_v42) = Cert.ReferenceIdeal.Read.val_main_v45 (F := Ideal) (m ((c : Thread nD τ).loc main_arg3)) := by
  show StableHlo.after hostOps1 (W2 m ρ c) (Proc.devRef .tc main_v42) = _
  after_results_simp
  rw [(Kept.arg3_at2 m ρ c).trans ((Kept.arg3_at1 m ρ c))]
  exact addUnit_eq_bcast (n := 64) (by decide) _ _ Cert.ReferenceIdeal.Gen.bcast_S64_S1x64_1

/-- After the combine region: the layer's output rows. -/
theorem layer_at4 (c : Dev nD) :
    W4 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine ((W4_arr m ρ c 4).trans (Layers.combined1 (V3 m ρ) c)).trans ?_
  show Layers.combine1 (W3 m ρ c (Proc.devRef .tc main_v41)) (W3 m ρ c (Proc.devRef .tc main_v29))
    (W3 m ρ c (Proc.devRef .tc main_v12)) (W3 m ρ c (Proc.devRef .tc main_v42)) = _
  rw [aggregated_at3 m ρ c, Kept.v29_at3 m ρ c, projected_at2 m ρ c, selfWeight_at3 m ρ c, bias_at3 m ρ c]
  rfl

end Cert.KernelIdeal.Stages

end
-- ==== Proof.Project2.lean ====
/-
  The second layer's projection as one matrix product.

  The region cuts the 100000 rows of its left operand X into 20 blocks of 5000 consecutive rows; at grid point t it
  loads block t of X and the whole weight matrix W, narrows both to a shorter float format (the identity at the extended
  reals), multiplies them into a zero accumulator and writes the 5000 × 128 product back as block t of the output. Entry
  (r, c) of that block is the sum over k of X(5000·t + r, k) · W(k, c), which is entry (5000·t + r, c) of the product
  X · W of the whole matrices; the 20 blocks tile the output, so after the region the output array is X · W.
-/
import proofs.«110792_j75728863363600_1_alg».proof.Proof.Gen.KernelIdeal.Frame
import proofs.«110792_j75728863363600_1_alg».proof.Proof.Gen.ReferenceIdeal
import proofs.«110792_j75728863363600_1_alg».proof.Proof.LibTileEntry
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The block's product record and the whole matrices' read as the textbook product. -/
theorem plainBlock2 : Plain dot_S5000x64_S64x128_S5000x128_1_0_0_1_n_n := Plain.of_fields _ rfl rfl rfl rfl rfl rfl
theorem plainWhole2 : Plain Cert.ReferenceIdeal.dot_S100000x64_S64x128_S100000x128_1_0_0_1_n_n := Plain.of_fields _ rfl rfl rfl rfl rfl rfl

/-- The product of the whole matrices, in the host's spelling. -/
def projection2 (X : FVec Ideal S100000x64 .f32) (W : FVec Ideal S64x128 .f32) : FVec Ideal S100000x128 .f32 :=
  Host.dotGeneral Cert.ReferenceIdeal.dot_S100000x64_S64x128_S100000x128_1_0_0_1_n_n none X W

/-- The region's index maps over its 20 points: the left operand and the output move one block of rows per point, the
    weight matrix stays. -/
theorem indexMaps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of what the body computes from a block of rows of X and a copy of W: the whole product's entry `off`
    rows further down. -/
theorem product2_entry (x0 : Vec Ideal S5000x64 .f32) (x1 : Vec Ideal S64x128 .f32) (X : FVec Ideal S100000x64 .f32) (W : FVec Ideal S64x128 .f32)
    (off : Nat) (hx : RowBlk off x0 X) (hw : ∀ y, x1 y = W y) (j : S5000x128.Idx) (i : S100000x128.Idx)
    (hi0 : (i 0).val = off + (j 0).val) (hi1 : (i 1).val = (j 1).val) :
    k2_pay1 x0 x1 j = projection2 X W i :=
  Cert.Lib.TileEntry.tile_entry plainBlock2 plainWhole2 (shapeCast S5000x64 x0 shapeCasts_S5000x64_S5000x64) X x1 W (hx.castSelf shapeCasts_S5000x64_S5000x64) hw bitsLt_bf16_f32 bitsLt_bf16_f32 j i hi0 hi1

/-- What point t writes back is block t of the product of the whole matrices as the region finds them. -/
theorem written2 (c : Dev nD) (t : Fin cfg2.N) :
    (dat2 V c).flushed 2 t = ((cfg2.win 2).blk t).view.read (Elt Ideal)
      (projection2 (V c (Pipeline.arrRef spec2 0)) (V c (Pipeline.arrRef spec2 1))) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S64x128) origin2]
  obtain ⟨e00, e01, e10, e11, e20, e21⟩ := indexMaps2 t
  funext j
  refine product2_entry (iblk2 V c 0 t) (iblk2 V c 1 t) (V c (Pipeline.arrRef spec2 0)) (V c (Pipeline.arrRef spec2 1)) (t.val * 5000)
    (RowBlk.of_read (fun y => ((cfg2.win 0).blk t).view.emb y)
      (fun y => by show win2_0.index t (0 : Fin 2) * 5000 + 1 * (y 0).val = t.val * 5000 + (y 0).val; omega)
      (fun y => by show win2_0.index t (1 : Fin 2) * 64 + 1 * (y 1).val = (y 1).val; omega)
      (fun y => rfl))
    (fun y => ?_) j (((cfg2.win 2).blk t).view.emb j) ?_ ?_
  · show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 64 + 1 * (y 0).val = (y 0).val; omega
    | ⟨1, _⟩ => show win2_1.index t (1 : Fin 2) * 128 + 1 * (y 1).val = (y 1).val; omega
  · show win2_2.index t (0 : Fin 2) * 5000 + 1 * (j 0).val = t.val * 5000 + (j 0).val; omega
  · show win2_2.index t (1 : Fin 2) * 128 + 1 * (j 1).val = (j 1).val; omega

/-- An index of the output array lies in point t's block iff each coordinate lies in the block's range on its axis. -/
theorem inBlock2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r of the output lies in the block of point r / 5000: the 20 blocks cover the array. -/
theorem covered2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := by show (i 0).val / 5000 < grid2.N; rw [N_2]; omega
  obtain ⟨e00, e01, e10, e11, e20, e21⟩ := indexMaps2 ⟨(i 0).val / 5000, hN⟩
  refine ⟨⟨(i 0).val / 5000, hN⟩, flush2_2 _, ?_⟩
  rw [inBlock2]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    rw [e21]; omega

/-- After the region the output array is the product of the two operand arrays as the region found them. -/
theorem product2 (c : Dev nD) :
    (dat2 V c).arrAt 2 cfg2.N
      = projection2 (V c (Pipeline.arrRef spec2 0)) (V c (Pipeline.arrRef spec2 1)) :=
  (dat2 V c).arrAt_eq_of_cover 2 _ (fun t _ => written2 V c t) (covered2)

end Cert.KernelIdeal.Layers

end
-- ==== Proof.Combine3.lean ====
/-
  The second layer's combine step as one whole-array function.

  The region cuts the 100000 rows of the aggregated neighbour rows A, of the nodes' own projected rows H and of the
  per-node column D into 20 blocks of 5000 consecutive rows; at grid point t it loads block t of each and the one bias
  row b, and writes back, as block t of the output, the rows A(r, ·) + H(r, ·) · D(r) + b, each entry then replaced by its maximum with 0.
  Row r of a block is made from row 5000·t + r of the three operands alone, so the block is block t of the same
  function of the whole arrays; the 20 blocks tile the output, so after the region the output array is that function
  of the four operand arrays.
-/
import proofs.«110792_j75728863363600_1_alg».proof.Proof.Gen.KernelIdeal.Frame
import proofs.«110792_j75728863363600_1_alg».proof.Proof.Gen.ReferenceIdeal
import proofs.«110792_j75728863363600_1_alg».proof.Proof.LibSelfLoopBlock
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin3 : (![0, 0] : Fin 2 → Nat) = fun _ => 0 := funext fun a => by fin_cases a <;> rfl

/-- The combine step of the whole arrays, in the host's spelling. -/
def combine3 (A H : FVec Ideal S100000x128 .f32) (D : FVec Ideal S100000x1 .f32) (b : FVec Ideal S1x128 .f32) : FVec Ideal S100000x128 .f32 :=
  maximumf (addf (addf A (mulf H (broadcastInDim S100000x128 ![0, 1] Cert.ReferenceIdeal.Gen.bcast_S100000x1_S100000x128_0_1 D))) (broadcastInDim S100000x128 ![0, 1] Cert.ReferenceIdeal.Gen.bcast_S1x128_S100000x128_0_1 b)) (broadcastInDim S100000x128 ![] Cert.ReferenceIdeal.Gen.bcast_S_S100000x128 (constant (F := Ideal) S_ .f32 0x00000000#32))

/-- The region's index maps over its 20 points: the three row-tiled operands and the output move one block of rows
    per point, the bias row stays. -/
theorem indexMaps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What the body computes from blocks of rows of A, H and D and a copy of b is the same block of rows of the combine
    step of the whole arrays. -/
theorem combine3_block (x0 x1 : Vec Ideal S5000x128 .f32) (x2 : Vec Ideal S5000x1 .f32) (x3 : Vec Ideal S1x128 .f32)
    (A H : FVec Ideal S100000x128 .f32) (D : FVec Ideal S100000x1 .f32) (b : FVec Ideal S1x128 .f32) (off : Nat)
    (h0 : RowBlk off x0 A) (h1 : RowBlk off x1 H) (h2 : RowBlk off x2 D) (h3 : x3 = b) :
    RowBlk off (k3_pay1 x0 x1 x2 x3) (combine3 A H D b) := by
  subst h3
  exact (RowBlk.selfLoop x3 h0 h1 h2 _ _ _ _ _ _ _).rectify _

/-- What point t writes back is block t of the combine step of the whole arrays as the region finds them. -/
theorem written3 (c : Dev nD) (t : Fin cfg3.N) :
    (dat3 V c).flushed 4 t = ((cfg3.win 4).blk t).view.read (Elt Ideal)
      (combine3 (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero origin3]
  simp only [View.ld_unit_zero (S := S5000x128) origin3, View.ld_unit_zero (S := S5000x1) origin3, View.ld_unit_zero (S := S1x128) origin3]
  obtain ⟨e00, e01, e10, e11, e20, e21, e30, e31, e40, e41⟩ := indexMaps3 t
  funext j
  refine (combine3_block (iblk3 V c 0 t) (iblk3 V c 1 t) (iblk3 V c 2 t) (iblk3 V c 3 t)
    (V c (Pipeline.arrRef spec3 0)) (V c (Pipeline.arrRef spec3 1)) (V c (Pipeline.arrRef spec3 2)) (V c (Pipeline.arrRef spec3 3)) (t.val * 5000)
    (RowBlk.of_read (fun y => ((cfg3.win 0).blk t).view.emb y)
      (fun y => by show win3_0.index t (0 : Fin 2) * 5000 + 1 * (y 0).val = t.val * 5000 + (y 0).val; omega)
      (fun y => by show win3_0.index t (1 : Fin 2) * 128 + 1 * (y 1).val = (y 1).val; omega)
      (fun y => rfl))
    (RowBlk.of_read (fun y => ((cfg3.win 1).blk t).view.emb y)
      (fun y => by show win3_1.index t (0 : Fin 2) * 5000 + 1 * (y 0).val = t.val * 5000 + (y 0).val; omega)
      (fun y => by show win3_1.index t (1 : Fin 2) * 128 + 1 * (y 1).val = (y 1).val; omega)
      (fun y => rfl))
    (RowBlk.of_read (fun y => ((cfg3.win 2).blk t).view.emb y)
      (fun y => by show win3_2.index t (0 : Fin 2) * 5000 + 1 * (y 0).val = t.val * 5000 + (y 0).val; omega)
      (fun y => by show win3_2.index t (1 : Fin 2) * 1 + 1 * (y 1).val = (y 1).val; omega)
      (fun y => rfl))
    (funext fun y => ?_)).read j (((cfg3.win 4).blk t).view.emb j) ?_ ?_
  · show V c (Pipeline.arrRef spec3 3) (((cfg3.win 3).blk t).view.emb y) = V c (Pipeline.arrRef spec3 3) y
    refine congrArg (V c (Pipeline.arrRef spec3 3)) (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show win3_4.index t (0 : Fin 2) * 5000 + 1 * (j 0).val = t.val * 5000 + (j 0).val; omega
  · show win3_4.index t (1 : Fin 2) * 128 + 1 * (j 1).val = (j 1).val; omega

/-- An index of the output array lies in point t's block iff each coordinate lies in the block's range on its axis. -/
theorem inBlock3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v58).slice (win3_4.rect t)).set ↔ _
  rw [View.set_slice_whole, Rect.mem_set_unit]
  exact Iff.rfl

/-- Row r of the output lies in the block of point r / 5000: the 20 blocks cover the array. -/
theorem covered3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 5000 < cfg3.N := by show (i 0).val / 5000 < grid3.N; rw [N_3]; omega
  obtain ⟨e00, e01, e10, e11, e20, e21, e30, e31, e40, e41⟩ := indexMaps3 ⟨(i 0).val / 5000, hN⟩
  refine ⟨⟨(i 0).val / 5000, hN⟩, flush3_4 _, ?_⟩
  rw [inBlock3]
  intro a
  match a with
  | ⟨0, _⟩ =>
    show win3_4.index ⟨(i 0).val / 5000, hN⟩ (0 : Fin 2) * 5000 ≤ (i 0).val ∧ (i 0).val < win3_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, hN⟩ (1 : Fin 2) * 128 ≤ (i 1).val ∧ (i 1).val < win3_4.index ⟨(i 0).val / 5000, hN⟩ (1 : Fin 2) * 128 + 128
    rw [e41]; omega

/-- After the region the output array is the combine step of the four operand arrays as the region found them. -/
theorem combined3 (c : Dev nD) :
    (dat3 V c).arrAt 4 cfg3.N
      = combine3 (V c (Pipeline.arrRef spec3 0)) (V c (Pipeline.arrRef spec3 1)) (V c (Pipeline.arrRef spec3 2)) (V c (Pipeline.arrRef spec3 3)) :=
  (dat3 V c).arrAt_eq_of_cover 4 _ (fun t _ => written3 V c t) (covered3)

end Cert.KernelIdeal.Layers

end
-- ==== Proof.Stage2.lean ====
/-
  The second layer, boundary by boundary, against the reference's own stages.

  The layer's projection region leaves the product of the layer's input rows and its weight matrix; the stretch of
  host operations after it gathers each edge's source row of that product, scales it by the edge's weight and adds it
  into the edge's destination row, and makes the bias a one-row matrix; the combine region then adds, to every node's
  aggregated row, the node's own projected row scaled by its squared inverse root degree, and the bias, and takes the maximum with 0.
  The reference spells the same layer with host operations only, recomputing the degree normalisation from the edge
  list. Each buffer below holds, at the named boundary, the corresponding stage of the reference applied to the
  launch contents of the arguments: the regions by their whole-array forms, the host operations because they are the
  same operations on equal operands, a reshaped row or column because it is the broadcast one.
-/
import proofs.«110792_j75728863363600_1_alg».proof.Proof.Stage1
import proofs.«110792_j75728863363600_1_alg».proof.Proof.Project2
import proofs.«110792_j75728863363600_1_alg».proof.Proof.Combine3

set_option maxRecDepth 16384

noncomputable section

namespace Cert.KernelIdeal.Stages

open Cert.KernelIdeal Cert.KernelIdeal.Gen Cert.Lib.DenseLayer
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The reference recomputes the two weight columns in every layer from the edge list alone: the same columns. -/
theorem edgeWeight_same2 (x1 : (⟨Cert.ReferenceIdeal.S2x1600000, .i32⟩ : BufTy).Contents (Elt Ideal)) :
    Cert.ReferenceIdeal.Read.val_main_v79 (F := Ideal) x1 = Cert.ReferenceIdeal.Read.val_main_v34 (F := Ideal) x1 := rfl
theorem selfWeight_same2 (x1 : (⟨Cert.ReferenceIdeal.S2x1600000, .i32⟩ : BufTy).Contents (Elt Ideal)) :
    Cert.ReferenceIdeal.Read.val_main_v86 (F := Ideal) x1 = Cert.ReferenceIdeal.Read.val_main_v41 (F := Ideal) x1 := rfl

/-- The edge lists and the edge weights where the layer's host operations read them. -/
theorem src_at5 (c : Dev nD) : W5 m ρ c (Proc.devRef .tc main_v1) = Cert.ReferenceIdeal.Read.val_main_v1 (F := Ideal) (m ((c : Thread nD τ).loc main_arg1)) :=
  (Kept.v1_at5 m ρ c).trans ((Kept.v1_at4 m ρ c).trans ((Kept.v1_at3 m ρ c).trans (src_at2 m ρ c)))
theorem dst_at5 (c : Dev nD) : W5 m ρ c (Proc.devRef .tc main_v3) = Cert.ReferenceIdeal.Read.val_main_v3 (F := Ideal) (m ((c : Thread nD τ).loc main_arg1)) :=
  (Kept.v3_at5 m ρ c).trans ((Kept.v3_at4 m ρ c).trans ((Kept.v3_at3 m ρ c).trans (dst_at2 m ρ c)))
theorem edgeWeight_at5 (c : Dev nD) : W5 m ρ c (Proc.devRef .tc main_v28) = Cert.ReferenceIdeal.Read.val_main_v79 (F := Ideal) (m ((c : Thread nD τ).loc main_arg1)) :=
  ((Kept.v28_at5 m ρ c).trans ((Kept.v28_at4 m ρ c).trans ((Kept.v28_at3 m ρ c).trans (edgeWeight_at2 m ρ c)))).trans ((edgeWeight_same1 _).trans (edgeWeight_same2 _).symm)
theorem selfWeight_at6 (c : Dev nD) : W6 m ρ c (Proc.devRef .tc main_v12) = Cert.ReferenceIdeal.Read.val_main_v86 (F := Ideal) (m ((c : Thread nD τ).loc main_arg1)) :=
  ((Kept.v12_at6 m ρ c).trans ((Kept.v12_at5 m ρ c).trans ((Kept.v12_at4 m ρ c).trans (selfWeight_at3 m ρ c)))).trans ((selfWeight_same1 _).trans (selfWeight_same2 _).symm)

/-- After the projection region: the layer's input rows times its weight matrix. -/
theorem projected_at5 (c : Dev nD) :
    W5 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W5_arr m ρ c 2).trans (Layers.product2 (V4 m ρ) c)).trans ?_
  show Layers.projection2 (W4 m ρ c (Proc.devRef .tc main_v43)) (W4 m ρ c (Proc.devRef .tc main_arg4)) = _
  rw [layer_at4 m ρ c, (Kept.arg4_at4 m ρ c).trans ((Kept.arg4_at3 m ρ c).trans ((Kept.arg4_at2 m ρ c).trans ((Kept.arg4_at1 m ρ c))))]
  rfl

/-- After the host operations: every node's aggregated neighbour rows, and the bias as a one-row matrix. -/
theorem aggregated_at6 (c : Dev nD) :
    W6 m ρ c (Proc.devRef .tc main_v56) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [src_at5 m ρ c, dst_at5 m ρ c, edgeWeight_at5 m ρ c, projected_at5 m ρ c]
  rfl
theorem bias_at6 (c : Dev nD) :
    W6 m ρ c (Proc.devRef .tc main_v57) = Cert.ReferenceIdeal.Read.val_main_v90 (F := Ideal) (m ((c : Thread nD τ).loc main_arg5)) := by
  show StableHlo.after hostOps3 (W5 m ρ c) (Proc.devRef .tc main_v57) = _
  after_results_simp
  rw [(Kept.arg5_at5 m ρ c).trans ((Kept.arg5_at4 m ρ c).trans ((Kept.arg5_at3 m ρ c).trans ((Kept.arg5_at2 m ρ c).trans ((Kept.arg5_at1 m ρ c)))))]
  exact addUnit_eq_bcast (n := 128) (by decide) _ _ Cert.ReferenceIdeal.Gen.bcast_S128_S1x128_1

/-- After the combine region: the layer's output rows. -/
theorem layer_at7 (c : Dev nD) :
    W7 m ρ c (Proc.devRef .tc main_v58) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W7_arr m ρ c 4).trans (Layers.combined3 (V6 m ρ) c)).trans ?_
  show Layers.combine3 (W6 m ρ c (Proc.devRef .tc main_v56)) (W6 m ρ c (Proc.devRef .tc main_v44))
    (W6 m ρ c (Proc.devRef .tc main_v12)) (W6 m ρ c (Proc.devRef .tc main_v57)) = _
  rw [aggregated_at6 m ρ c, Kept.v44_at6 m ρ c, projected_at5 m ρ c, selfWeight_at6 m ρ c, bias_at6 m ρ c]
  rfl

end Cert.KernelIdeal.Stages

end
-- ==== Proof.Project4.lean ====
/-
  The third layer's projection as one matrix product.

  The region cuts the 100000 rows of its left operand X into 20 blocks of 5000 consecutive rows; at grid point t it
  loads block t of X and the whole weight matrix W, narrows both to a shorter float format (the identity at the extended
  reals), multiplies them into a zero accumulator and writes the 5000 × 32 product back as block t of the output. Entry
  (r, c) of that block is the sum over k of X(5000·t + r, k) · W(k, c), which is entry (5000·t + r, c) of the product
  X · W of the whole matrices; the 20 blocks tile the output, so after the region the output array is X · W.
-/
import proofs.«110792_j75728863363600_1_alg».proof.Proof.Gen.KernelIdeal.Frame
import proofs.«110792_j75728863363600_1_alg».proof.Proof.Gen.ReferenceIdeal
import proofs.«110792_j75728863363600_1_alg».proof.Proof.LibTileEntry
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin4 : (![0, 0] : Fin 2 → Nat) = fun _ => 0 := funext fun a => by fin_cases a <;> rfl

/-- The block's product record and the whole matrices' read as the textbook product. -/
theorem plainBlock4 : Plain dot_S5000x128_S128x32_S5000x32_1_0_0_1_n_n := Plain.of_fields _ rfl rfl rfl rfl rfl rfl
theorem plainWhole4 : Plain Cert.ReferenceIdeal.dot_S100000x128_S128x32_S100000x32_1_0_0_1_n_n := Plain.of_fields _ rfl rfl rfl rfl rfl rfl

/-- The product of the whole matrices, in the host's spelling. -/
def projection4 (X : FVec Ideal S100000x128 .f32) (W : FVec Ideal S128x32 .f32) : FVec Ideal S100000x32 .f32 :=
  Host.dotGeneral Cert.ReferenceIdeal.dot_S100000x128_S128x32_S100000x32_1_0_0_1_n_n none X W

/-- The region's index maps over its 20 points: the left operand and the output move one block of rows per point, the
    weight matrix stays. -/
theorem indexMaps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of what the body computes from a block of rows of X and a copy of W: the whole product's entry `off`
    rows further down. -/
theorem product4_entry (x0 : Vec Ideal S5000x128 .f32) (x1 : Vec Ideal S128x32 .f32) (X : FVec Ideal S100000x128 .f32) (W : FVec Ideal S128x32 .f32)
    (off : Nat) (hx : RowBlk off x0 X) (hw : ∀ y, x1 y = W y) (j : S5000x32.Idx) (i : S100000x32.Idx)
    (hi0 : (i 0).val = off + (j 0).val) (hi1 : (i 1).val = (j 1).val) :
    k4_pay1 x0 x1 j = projection4 X W i :=
  Cert.Lib.TileEntry.tile_entry plainBlock4 plainWhole4 (shapeCast S5000x128 x0 shapeCasts_S5000x128_S5000x128) X x1 W (hx.castSelf shapeCasts_S5000x128_S5000x128) hw bitsLt_bf16_f32 bitsLt_bf16_f32 j i hi0 hi1

/-- What point t writes back is block t of the product of the whole matrices as the region finds them. -/
theorem written4 (c : Dev nD) (t : Fin cfg4.N) :
    (dat4 V c).flushed 2 t = ((cfg4.win 2).blk t).view.read (Elt Ideal)
      (projection4 (V c (Pipeline.arrRef spec4 0)) (V c (Pipeline.arrRef spec4 1))) := by
  show (cfg4.win 2).cut (grid4.coords t) ((dat4 V c).after 2 t) = _
  rw [after4_2]
  unfold out4_2
  rw [View.canon_unit_zero origin4]
  simp only [View.ld_unit_zero (S := S5000x128) origin4, View.ld_unit_zero (S := S128x32) origin4]
  obtain ⟨e00, e01, e10, e11, e20, e21⟩ := indexMaps4 t
  funext j
  refine product4_entry (iblk4 V c 0 t) (iblk4 V c 1 t) (V c (Pipeline.arrRef spec4 0)) (V c (Pipeline.arrRef spec4 1)) (t.val * 5000)
    (RowBlk.of_read (fun y => ((cfg4.win 0).blk t).view.emb y)
      (fun y => by show win4_0.index t (0 : Fin 2) * 5000 + 1 * (y 0).val = t.val * 5000 + (y 0).val; omega)
      (fun y => by show win4_0.index t (1 : Fin 2) * 128 + 1 * (y 1).val = (y 1).val; omega)
      (fun y => rfl))
    (fun y => ?_) j (((cfg4.win 2).blk t).view.emb j) ?_ ?_
  · show V c (Pipeline.arrRef spec4 1) (((cfg4.win 1).blk t).view.emb y) = V c (Pipeline.arrRef spec4 1) y
    refine congrArg (V c (Pipeline.arrRef spec4 1)) (funext fun a => Fin.ext ?_)
    match a with
    | ⟨0, _⟩ => show win4_1.index t (0 : Fin 2) * 128 + 1 * (y 0).val = (y 0).val; omega
    | ⟨1, _⟩ => show win4_1.index t (1 : Fin 2) * 32 + 1 * (y 1).val = (y 1).val; omega
  · show win4_2.index t (0 : Fin 2) * 5000 + 1 * (j 0).val = t.val * 5000 + (j 0).val; omega
  · show win4_2.index t (1 : Fin 2) * 32 + 1 * (j 1).val = (j 1).val; omega

/-- An index of the output array lies in point t's block iff each coordinate lies in the block's range on its axis. -/
theorem inBlock4 (t : Fin cfg4.N) (i : S100000x32.Idx) :
    i ∈ ((cfg4.win 2).blk t).view.set ↔ ∀ a : Fin 2, win4_2.index t a * S5000x32.size a ≤ (i a).val ∧ (i a).val < win4_2.index t a * S5000x32.size a + S5000x32.size a := by
  show i ∈ ((View.whole main_v59).slice (win4_2.rect t)).set ↔ _
  rw [View.set_slice_whole, Rect.mem_set_unit]
  exact Iff.rfl

/-- Row r of the output lies in the block of point r / 5000: the 20 blocks cover the array. -/
theorem covered4 (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  have hN : (i 0).val / 5000 < cfg4.N := by show (i 0).val / 5000 < grid4.N; rw [N_4]; omega
  obtain ⟨e00, e01, e10, e11, e20, e21⟩ := indexMaps4 ⟨(i 0).val / 5000, hN⟩
  refine ⟨⟨(i 0).val / 5000, hN⟩, flush4_2 _, ?_⟩
  rw [inBlock4]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win4_2.index ⟨(i 0).val / 5000, hN⟩ (1 : Fin 2) * 32 ≤ (i 1).val ∧ (i 1).val < win4_2.index ⟨(i 0).val / 5000, hN⟩ (1 : Fin 2) * 32 + 32
    rw [e21]; omega

/-- After the region the output array is the product of the two operand arrays as the region found them. -/
theorem product4 (c : Dev nD) :
    (dat4 V c).arrAt 2 cfg4.N
      = projection4 (V c (Pipeline.arrRef spec4 0)) (V c (Pipeline.arrRef spec4 1)) :=
  (dat4 V c).arrAt_eq_of_cover 2 _ (fun t _ => written4 V c t) (covered4)

end Cert.KernelIdeal.Layers

end
-- ==== Proof.Combine5.lean ====
/-
  The third layer's combine step as one whole-array function.

  The region cuts the 100000 rows of the aggregated neighbour rows A, of the nodes' own projected rows H and of the
  per-node column D into 20 blocks of 5000 consecutive rows; at grid point t it loads block t of each and the one bias
  row b, and writes back, as block t of the output, the rows A(r, ·) + H(r, ·) · D(r) + b.
  Row r of a block is made from row 5000·t + r of the three operands alone, so the block is block t of the same
  function of the whole arrays; the 20 blocks tile the output, so after the region the output array is that function
  of the four operand arrays.
-/
import proofs.«110792_j75728863363600_1_alg».proof.Proof.Gen.KernelIdeal.Frame
import proofs.«110792_j75728863363600_1_alg».proof.Proof.Gen.ReferenceIdeal
import proofs.«110792_j75728863363600_1_alg».proof.Proof.LibSelfLoopBlock
import proofs.«110792_j75728863363600_1_alg».proof.Proof.LibRowRead
import Idealize.ShloMosaic.Lib.Pipeline.Value

set_option maxRecDepth 16384

noncomputable section

namespace Cert.KernelIdeal.Layers

open Cert.KernelIdeal Cert.KernelIdeal.Gen Cert.Lib.DenseLayer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin5 : (![0, 0] : Fin 2 → Nat) = fun _ => 0 := funext fun a => by fin_cases a <;> rfl

/-- The combine step of the whole arrays, in the host's spelling. -/
def combine5 (A H : FVec Ideal S100000x32 .f32) (D : FVec Ideal S100000x1 .f32) (b : FVec Ideal S1x32 .f32) : FVec Ideal S100000x32 .f32 :=
  addf (addf A (mulf H (broadcastInDim S100000x32 ![0, 1] Cert.ReferenceIdeal.Gen.bcast_S100000x1_S100000x32_0_1 D))) (broadcastInDim S100000x32 ![0, 1] Cert.ReferenceIdeal.Gen.bcast_S1x32_S100000x32_0_1 b)

/-- The region's index maps over its 20 points: the three row-tiled operands and the output move one block of rows
    per point, the bias row stays. -/
theorem indexMaps5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What the body computes from blocks of rows of A, H and D and a copy of b is the same block of rows of the combine
    step of the whole arrays. -/
theorem combine5_block (x0 x1 : Vec Ideal S5000x32 .f32) (x2 : Vec Ideal S5000x1 .f32) (x3 : Vec Ideal S1x32 .f32)
    (A H : FVec Ideal S100000x32 .f32) (D : FVec Ideal S100000x1 .f32) (b : FVec Ideal S1x32 .f32) (off : Nat)
    (h0 : RowBlk off x0 A) (h1 : RowBlk off x1 H) (h2 : RowBlk off x2 D) (h3 : x3 = b) :
    RowBlk off (k5_pay1 x0 x1 x2 x3) (combine5 A H D b) := by
  subst h3
  exact RowBlk.selfLoop x3 h0 h1 h2 _ _ _ _ _ _ _

-- comparing the block's payload with the whole-array form unfolds both sides entry by entry: more steps than the default budget
set_option maxHeartbeats 2000000 in
/-- What point t writes back is block t of the combine step of the whole arrays as the region finds them. -/
theorem written5 (c : Dev nD) (t : Fin cfg5.N) :
    (dat5 V c).flushed 4 t = ((cfg5.win 4).blk t).view.read (Elt Ideal)
      (combine5 (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero origin5]
  simp only [View.ld_unit_zero (S := S5000x32) origin5, View.ld_unit_zero (S := S5000x1) origin5, View.ld_unit_zero (S := S1x32) origin5]
  obtain ⟨e00, e01, e10, e11, e20, e21, e30, e31, e40, e41⟩ := indexMaps5 t
  funext j
  refine (combine5_block (iblk5 V c 0 t) (iblk5 V c 1 t) (iblk5 V c 2 t) (iblk5 V c 3 t)
    (V c (Pipeline.arrRef spec5 0)) (V c (Pipeline.arrRef spec5 1)) (V c (Pipeline.arrRef spec5 2)) (V c (Pipeline.arrRef spec5 3)) (t.val * 5000)
    (RowBlk.of_read (fun y => ((cfg5.win 0).blk t).view.emb y)
      (fun y => by show win5_0.index t (0 : Fin 2) * 5000 + 1 * (y 0).val = t.val * 5000 + (y 0).val; omega)
      (fun y => by show win5_0.index t (1 : Fin 2) * 32 + 1 * (y 1).val = (y 1).val; omega)
      (fun y => rfl))
    (RowBlk.of_read (fun y => ((cfg5.win 1).blk t).view.emb y)
      (fun y => by show win5_1.index t (0 : Fin 2) * 5000 + 1 * (y 0).val = t.val * 5000 + (y 0).val; omega)
      (fun y => by show win5_1.index t (1 : Fin 2) * 32 + 1 * (y 1).val = (y 1).val; omega)
      (fun y => rfl))
    (RowBlk.of_read (fun y => ((cfg5.win 2).blk t).view.emb y)
      (fun y => by show win5_2.index t (0 : Fin 2) * 5000 + 1 * (y 0).val = t.val * 5000 + (y 0).val; omega)
      (fun y => by show win5_2.index t (1 : Fin 2) * 1 + 1 * (y 1).val = (y 1).val; omega)
      (fun y => rfl))
    (funext fun y => ?_)).read j (((cfg5.win 4).blk t).view.emb j) ?_ ?_
  · show V c (Pipeline.arrRef spec5 3) (((cfg5.win 3).blk t).view.emb y) = V c (Pipeline.arrRef spec5 3) y
    refine congrArg (V c (Pipeline.arrRef spec5 3)) (funext fun a => Fin.ext ?_)
    match a with
    | ⟨0, _⟩ => show win5_3.index t (0 : Fin 2) * 1 + 1 * (y 0).val = (y 0).val; omega
    | ⟨1, _⟩ => show win5_3.index t (1 : Fin 2) * 32 + 1 * (y 1).val = (y 1).val; omega
  · show win5_4.index t (0 : Fin 2) * 5000 + 1 * (j 0).val = t.val * 5000 + (j 0).val; omega
  · show win5_4.index t (1 : Fin 2) * 32 + 1 * (j 1).val = (j 1).val; omega

/-- An index of the output array lies in point t's block iff each coordinate lies in the block's range on its axis. -/
theorem inBlock5 (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v73).slice (win5_4.rect t)).set ↔ _
  rw [View.set_slice_whole, Rect.mem_set_unit]
  exact Iff.rfl

/-- Row r of the output lies in the block of point r / 5000: the 20 blocks cover the array. -/
theorem covered5 (i : S100000x32.Idx) : ∃ t : Fin cfg5.N, (cfg5.win 4).flush t = true ∧ i ∈ ((cfg5.win 4).blk t).view.set := by
  have hi0 : (i 0).val < 100000 := (i 0).isLt
  have hi1 : (i 1).val < 32 := (i 1).isLt
  have hN : (i 0).val / 5000 < cfg5.N := by show (i 0).val / 5000 < grid5.N; rw [N_5]; omega
  obtain ⟨e00, e01, e10, e11, e20, e21, e30, e31, e40, e41⟩ := indexMaps5 ⟨(i 0).val / 5000, hN⟩
  refine ⟨⟨(i 0).val / 5000, hN⟩, flush5_4 _, ?_⟩
  rw [inBlock5]
  intro a
  match a with
  | ⟨0, _⟩ =>
    show win5_4.index ⟨(i 0).val / 5000, hN⟩ (0 : Fin 2) * 5000 ≤ (i 0).val ∧ (i 0).val < win5_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win5_4.index ⟨(i 0).val / 5000, hN⟩ (1 : Fin 2) * 32 ≤ (i 1).val ∧ (i 1).val < win5_4.index ⟨(i 0).val / 5000, hN⟩ (1 : Fin 2) * 32 + 32
    rw [e41]; omega

/-- After the region the output array is the combine step of the four operand arrays as the region found them. -/
theorem combined5 (c : Dev nD) :
    (dat5 V c).arrAt 4 cfg5.N
      = combine5 (V c (Pipeline.arrRef spec5 0)) (V c (Pipeline.arrRef spec5 1)) (V c (Pipeline.arrRef spec5 2)) (V c (Pipeline.arrRef spec5 3)) :=
  (dat5 V c).arrAt_eq_of_cover 4 _ (fun t _ => written5 V c t) (covered5)

end Cert.KernelIdeal.Layers

end
-- ==== Proof.Stage3.lean ====
/-
  The third layer, boundary by boundary, against the reference's own stages.

  The layer's projection region leaves the product of the layer's input rows and its weight matrix; the stretch of
  host operations after it gathers each edge's source row of that product, scales it by the edge's weight and adds it
  into the edge's destination row, and makes the bias a one-row matrix; the combine region then adds, to every node's
  aggregated row, the node's own projected row scaled by its squared inverse root degree, and the bias.
  The reference spells the same layer with host operations only, recomputing the degree normalisation from the edge
  list. Each buffer below holds, at the named boundary, the corresponding stage of the reference applied to the
  launch contents of the arguments: the regions by their whole-array forms, the host operations because they are the
  same operations on equal operands, a reshaped row or column because it is the broadcast one.
-/
import proofs.«110792_j75728863363600_1_alg».proof.Proof.Stage2
import proofs.«110792_j75728863363600_1_alg».proof.Proof.Project4
import proofs.«110792_j75728863363600_1_alg».proof.Proof.Combine5

set_option maxRecDepth 16384

noncomputable section

namespace Cert.KernelIdeal.Stages

open Cert.KernelIdeal Cert.KernelIdeal.Gen Cert.Lib.DenseLayer
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The reference recomputes the two weight columns in every layer from the edge list alone: the same columns. -/
theorem edgeWeight_same3 (x1 : (⟨Cert.ReferenceIdeal.S2x1600000, .i32⟩ : BufTy).Contents (Elt Ideal)) :
    Cert.ReferenceIdeal.Read.val_main_v124 (F := Ideal) x1 = Cert.ReferenceIdeal.Read.val_main_v34 (F := Ideal) x1 := rfl
theorem selfWeight_same3 (x1 : (⟨Cert.ReferenceIdeal.S2x1600000, .i32⟩ : BufTy).Contents (Elt Ideal)) :
    Cert.ReferenceIdeal.Read.val_main_v131 (F := Ideal) x1 = Cert.ReferenceIdeal.Read.val_main_v41 (F := Ideal) x1 := rfl

/-- The edge lists and the edge weights where the layer's host operations read them. -/
theorem src_at8 (c : Dev nD) : W8 m ρ c (Proc.devRef .tc main_v1) = Cert.ReferenceIdeal.Read.val_main_v1 (F := Ideal) (m ((c : Thread nD τ).loc main_arg1)) :=
  (Kept.v1_at8 m ρ c).trans ((Kept.v1_at7 m ρ c).trans ((Kept.v1_at6 m ρ c).trans (src_at5 m ρ c)))
theorem dst_at8 (c : Dev nD) : W8 m ρ c (Proc.devRef .tc main_v3) = Cert.ReferenceIdeal.Read.val_main_v3 (F := Ideal) (m ((c : Thread nD τ).loc main_arg1)) :=
  (Kept.v3_at8 m ρ c).trans ((Kept.v3_at7 m ρ c).trans ((Kept.v3_at6 m ρ c).trans (dst_at5 m ρ c)))
theorem edgeWeight_at8 (c : Dev nD) : W8 m ρ c (Proc.devRef .tc main_v28) = Cert.ReferenceIdeal.Read.val_main_v124 (F := Ideal) (m ((c : Thread nD τ).loc main_arg1)) :=
  ((Kept.v28_at8 m ρ c).trans ((Kept.v28_at7 m ρ c).trans ((Kept.v28_at6 m ρ c).trans (edgeWeight_at5 m ρ c)))).trans ((edgeWeight_same2 _).trans (edgeWeight_same3 _).symm)
theorem selfWeight_at9 (c : Dev nD) : W9 m ρ c (Proc.devRef .tc main_v12) = Cert.ReferenceIdeal.Read.val_main_v131 (F := Ideal) (m ((c : Thread nD τ).loc main_arg1)) :=
  ((Kept.v12_at9 m ρ c).trans ((Kept.v12_at8 m ρ c).trans ((Kept.v12_at7 m ρ c).trans (selfWeight_at6 m ρ c)))).trans ((selfWeight_same2 _).trans (selfWeight_same3 _).symm)

/-- After the projection region: the layer's input rows times its weight matrix. -/
theorem projected_at8 (c : Dev nD) :
    W8 m ρ c (Proc.devRef .tc main_v59) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W8_arr m ρ c 2).trans (Layers.product4 (V7 m ρ) c)).trans ?_
  show Layers.projection4 (W7 m ρ c (Proc.devRef .tc main_v58)) (W7 m ρ c (Proc.devRef .tc main_arg6)) = _
  rw [layer_at7 m ρ c, (Kept.arg6_at7 m ρ c).trans ((Kept.arg6_at6 m ρ c).trans ((Kept.arg6_at5 m ρ c).trans ((Kept.arg6_at4 m ρ c).trans ((Kept.arg6_at3 m ρ c).trans ((Kept.arg6_at2 m ρ c).trans ((Kept.arg6_at1 m ρ c)))))))]
  rfl

/-- After the host operations: every node's aggregated neighbour rows, and the bias as a one-row matrix. -/
theorem aggregated_at9 (c : Dev nD) :
    W9 m ρ c (Proc.devRef .tc main_v71) = Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v71) = _
  after_results_simp
  rw [src_at8 m ρ c, dst_at8 m ρ c, edgeWeight_at8 m ρ c, projected_at8 m ρ c]
  rfl
theorem bias_at9 (c : Dev nD) :
    W9 m ρ c (Proc.devRef .tc main_v72) = Cert.ReferenceIdeal.Read.val_main_v135 (F := Ideal) (m ((c : Thread nD τ).loc main_arg7)) := by
  show StableHlo.after hostOps5 (W8 m ρ c) (Proc.devRef .tc main_v72) = _
  after_results_simp
  rw [(Kept.arg7_at8 m ρ c).trans ((Kept.arg7_at7 m ρ c).trans ((Kept.arg7_at6 m ρ c).trans ((Kept.arg7_at5 m ρ c).trans ((Kept.arg7_at4 m ρ c).trans ((Kept.arg7_at3 m ρ c).trans ((Kept.arg7_at2 m ρ c).trans ((Kept.arg7_at1 m ρ c))))))))]
  exact addUnit_eq_bcast (n := 32) (by decide) _ _ Cert.ReferenceIdeal.Gen.bcast_S32_S1x32_1

/-- After the combine region: the layer's output rows. -/
theorem layer_at10 (c : Dev nD) :
    W10 m ρ c (Proc.devRef .tc main_v73) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W10_arr m ρ c 4).trans (Layers.combined5 (V9 m ρ) c)).trans ?_
  show Layers.combine5 (W9 m ρ c (Proc.devRef .tc main_v71)) (W9 m ρ c (Proc.devRef .tc main_v59))
    (W9 m ρ c (Proc.devRef .tc main_v12)) (W9 m ρ c (Proc.devRef .tc main_v72)) = _
  rw [aggregated_at9 m ρ c, Kept.v59_at9 m ρ c, projected_at8 m ρ c, selfWeight_at9 m ρ c, bias_at9 m ρ c]
  rfl

end Cert.KernelIdeal.Stages

end
-- ==== Proof.lean ====
/-
  The certificate of a three-layer graph convolution encoder against its reference.

  Both programs compute, for node features x, an edge list and three weight matrices and biases, three layers
  h ↦ S(h · W) + b with the fixed normalised adjacency S = D^(-1/2) (A + I) D^(-1/2): every node's row of h · W is
  gathered along the edges, scaled by d(src) · d(dst) and summed into the edge's destination, the node's own row
  scaled by d² is added, then the bias; the first two layers end with the maximum with 0. The kernel runs each
  layer's product h · W and each layer's final combine as a pipelined region over blocks of 5000 rows and leaves the
  gather and the scatter-add to the host; the reference is host operations throughout.

  At the extended reals the two are the same function of the arguments, with no finiteness needed. A region's product
  of narrowed operands into a zero accumulator is the host's product, block of rows by block of rows, and the
  combine region is the host's sum of the aggregated rows, the scaled own rows and the bias row, block by block
  (the modules Project0/2/4 and Combine1/3/5). Between the regions both programs apply the same host operations to
  equal operands, and a row or column made by a reshape in one program and by a broadcast in the other is the same
  (the modules Stage0 to Stage3, which follow the kernel's buffers from boundary to boundary and identify each with a
  stage of the reference). So the kernel's result array ends at the reference's last stage of the launch arguments
  (`Stages.layer_at10` after `Result.run`), which is also where the reference's own run ends.

  The three frame claims are the generated frames; the idealization rewrote no operation, so there is nothing to
  preserve.
-/
import proofs.«110792_j75728863363600_1_alg».proof.Defs
import proofs.«110792_j75728863363600_1_alg».proof.Proof.Gen.Kernel
import proofs.«110792_j75728863363600_1_alg».proof.Proof.Gen.Kernel.Frame
import proofs.«110792_j75728863363600_1_alg».proof.Proof.Gen.KernelIdeal
import proofs.«110792_j75728863363600_1_alg».proof.Proof.Gen.KernelIdeal.Frame
import proofs.«110792_j75728863363600_1_alg».proof.Proof.Gen.ReferenceIdeal
import proofs.«110792_j75728863363600_1_alg».proof.Proof.Gen.ReferenceIdeal.Run
import proofs.«110792_j75728863363600_1_alg».proof.Proof.Gen.ReferenceIdeal.Read
import proofs.«110792_j75728863363600_1_alg».proof.Proof.Gen.Pre_finite_inputs
import proofs.«110792_j75728863363600_1_alg».proof.Proof.KernelRun
import proofs.«110792_j75728863363600_1_alg».proof.Proof.Stage3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ledger of rewrites is empty. -/
theorem preserves : Cert.preserves_Kernel_KernelIdeal := trivial

/-- From memories agreeing on the arguments both programs end with the result array at the reference's last stage
    of the arguments: the kernel's through its boundaries, the reference's by its own run. -/
theorem algebraic : Cert.algebraic_KernelIdeal_ReferenceIdeal := by
  intro m ρ m' ρ' _ hagree
  refine ⟨fun c => Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Stages.layer_at10 m ρ c), (h c).2⟩) (Cert.KernelIdeal.Result.run (F := Ideal) m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7⟩ := hagree c
    rw [Cert.ReferenceIdeal.Read.val_main_v137_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
